-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S1x4096 : Shape := ⟨2, ![1, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : IVec S4096x4096 32) (main_arg2 : FVec F S4096x1 .f32) (main_arg3 : FVec F S4096x1 .f32) (main_arg4 : IVec S4096x4096 1) (main_arg5 : FVec F S1x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1x4096 .f32 := Host.absf main_arg5
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg6 main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S1x4096 : Shape := ⟨2, ![1, 4096]⟩
abbrev S4096 : Shape := ⟨1, ![4096]⟩
abbrev S1024x512 : Shape := ⟨2, ![1024, 512]⟩
abbrev S1024x1 : Shape := ⟨2, ![1024, 1]⟩
abbrev S1x512 : Shape := ⟨2, ![1, 512]⟩
abbrev S1x1024 : Shape := ⟨2, ![1, 1024]⟩
abbrev S1024x1024 : Shape := ⟨2, ![1024, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .i1⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096x4096, .bf16⟩
  | .hbm, ⟨9, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .bf16 = 32 ∨ (Rect.block (s := S4096x4096) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .i1⟩
  | .hbm, ⟨5, _⟩ => ⟨S1x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid step leaves in the accumulator and in the output block, as values.

  A step loads the blocks of the activations, the codes, the scales, the zero points, the mask and the column scales,
  forms the product of the activation block with the dequantised weight block, and adds it to the accumulator. At the
  first step of a run over the contraction axis the accumulator is first overwritten with zeros, so what that step adds
  to is the zero block; at the last step the accumulator, with the bias row added, is written to the output block.
  Each statement below reads back the stores the step made: the last store through the whole buffer decides what the
  buffer holds, and a load of the whole buffer reads what was stored.
-/
import proofs.«145833_j64330020159913_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step (not first, not last): the accumulator holding `acc` ends at the step's payload over `acc`. -/
theorem acc_middle (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i)
    (x0 : Vec F S1024x512 .f32) (x1 : Vec F S1024x512 .i32) (x2 : Vec F S1024x1 .f32) (x3 : Vec F S1024x1 .f32) (x4 : Vec F S1024x512 .bf16) (x5 : Vec F S1x512 .f32) (x6 : Vec F S1x1024 .f32) (acc : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 acc = k0_pay2 x1 x3 x2 x5 x4 x0 acc := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 acc)]
  unfold kernelRun0_B
  dsimp only
  rw [View.canon_unit_zero hz]
  simp only [View.readAt_eq_ld, harg3.read_unread, harg4.read_unread, harg5.read_unread, harg6.read_unread, harg7.read_unread, harg8.read_unread, harg9.read_unread, harg11.read_unread, View.ld_unit_zero (S := S1024x512) hz, View.ld_unit_zero (S := S1024x1) hz, View.ld_unit_zero (S := S1x512) hz, View.ld_unit_zero (S := S1x1024) hz, View.ld_unit_zero (S := S1024x1024) hz]

/-- The last step leaves the same in the accumulator … -/
theorem acc_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1024x512 .bf16) (x5 : Vec F S1x512 .f32) (x6 : Vec F S1x1024 .f32) (acc : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 acc = k0_pay2 x1 x3 x2 x5 x4 x0 acc := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 acc)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S1024x512) hz, View.ld_unit_zero (S := S1024x1) hz, View.ld_unit_zero (S := S1x512) hz, View.ld_unit_zero (S := S1x1024) hz, View.ld_unit_zero (S := S1024x1024) hz]

/-- … and writes the output block: the new accumulator plus the bias row. -/
theorem out_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1024x512 .bf16) (x5 : Vec F S1x512 .f32) (x6 : Vec F S1x1024 .f32) (acc : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 acc = k0_pay3 (k0_pay2 x1 x3 x2 x5 x4 x0 acc) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 acc)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg8.read_unread, harg9.read_unread, harg11.read_unread, View.ld_unit_zero (S := S1024x512) hz, View.ld_unit_zero (S := S1024x1) hz, View.ld_unit_zero (S := S1x512) hz, View.ld_unit_zero (S := S1x1024) hz, View.ld_unit_zero (S := S1024x1024) hz]

/-- The first step of a run: the accumulator, whatever it held, is zeroed and then receives the step's product. -/
theorem acc_first (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i)
    (x0 : Vec F S1024x512 .f32) (x1 : Vec F S1024x512 .i32) (x2 : Vec F S1024x1 .f32) (x3 : Vec F S1024x1 .f32) (x4 : Vec F S1024x512 .bf16) (x5 : Vec F S1x512 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x1 x3 x2 x5 x4 x0 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, harg11.read_unread, View.ld_unit_zero (S := S1024x512) hz, View.ld_unit_zero (S := S1024x1) hz, View.ld_unit_zero (S := S1x512) hz, View.ld_unit_zero (S := S1x1024) hz, View.ld_unit_zero (S := S1024x1024) hz]

end Cert.KernelIdeal.Pieces

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.Payload.lean ====
/-
  The three values a grid step stores, read at one entry, over the extended reals.

  * the reset stores the zero block: every entry is `0`;
  * the accumulation step stores `acc + xblk · wblkᵀ`: entry (p, q) is `acc(p, q) + ∑ k < 512, xblk(p, k) · w(q, k)`
    where `w(q, k) = (((code(q, k) − zero(q)) · scale(q)) · colScale(k)) · keep(q, k)` is the dequantised, masked weight
    block built from the loaded blocks (the row's zero point and scale are columns spread over the 512 lanes, the column
    scales one row spread over the 1024 rows; the two roundings to bf16 in front of the matrix product change nothing
    at exact values, and the product into the zero block is the plain sum of products over the contracted axis);
  * the epilogue stores `acc + bias`: entry (p, q) is `acc(p, q) + bias(q)`, the bias row spread over the rows.
-/
import proofs.«145833_j64330020159913_1_alg».proof.Proof.Gen.KernelIdeal.Skeleton
import proofs.«145833_j64330020159913_1_alg».proof.Proof.LibContract1
import proofs.«145833_j64330020159913_1_alg».proof.Proof.LibBroadcast2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dequantised, column-scaled, masked weight block at (q, k), from the loaded blocks. -/
def wBlk (code : Vec Ideal S1024x512 .i32) (zero scale : Vec Ideal S1024x1 .f32) (colScale : Vec Ideal S1x512 .f32)
    (keep : Vec Ideal S1024x512 .bf16) (q : Fin 1024) (k : Fin 512) : EReal :=
  (((FloatOps.sitofp (F := Ideal) .f32 (code (ix2 q k)) - zero (ix2 q (0 : Fin 1))) * scale (ix2 q (0 : Fin 1)))
    * colScale (ix2 (0 : Fin 1) k)) * keep (ix2 q k)

/-- The reset's block is zero everywhere. -/
theorem pay1_apply (j : S1024x1024.Idx) : k0_pay1 (F := Ideal) j = 0 := by
  unfold k0_pay1
  simp only [shapeCast_self]
  exact Ideal.ofBits_zero_f32

/-- The matrix product contracts one axis … -/
theorem contr_rank : dot_S1024x512_S1024x512_S1024x1024_1_1_0_0_n_n.contr.rank = 1 := rfl
/-- … of 512 lanes. -/
theorem contr_size : dot_S1024x512_S1024x512_S1024x1024_1_1_0_0_n_n.contr.size ⟨0, by rw [contr_rank]; exact Nat.one_pos⟩ = 512 := rfl

/-- The left operand's kept axis follows the result's first coordinate. -/
theorem lhs_axis0 (j : S1024x1024.Idx) (κ : dot_S1024x512_S1024x512_S1024x1024_1_1_0_0_n_n.contr.Idx) : (dot_S1024x512_S1024x512_S1024x1024_1_1_0_0_n_n.lhsIdx j κ 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The right operand's kept axis follows the result's second coordinate. -/
theorem rhs_axis0 (j : S1024x1024.Idx) (κ : dot_S1024x512_S1024x512_S1024x1024_1_1_0_0_n_n.contr.Idx) : (dot_S1024x512_S1024x512_S1024x1024_1_1_0_0_n_n.rhsIdx j κ 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The left operand's index of the matrix product at result (p, q) and contraction coordinate k is (p, k). -/
theorem lhs_idx (p q : Fin 1024) (k : Fin 512) :
    dot_S1024x512_S1024x512_S1024x1024_1_1_0_0_n_n.lhsIdx (ix2 p q) ((contrEquiv1 dot_S1024x512_S1024x512_S1024x1024_1_1_0_0_n_n 512 contr_rank contr_size).symm k) = ix2 p k := by
  have hk := contrEquiv1_symm_val dot_S1024x512_S1024x512_S1024x1024_1_1_0_0_n_n 512 contr_rank contr_size k
  funext a
  apply Fin.ext
  match a with
  | ⟨0, _⟩ => exact lhs_axis0 _ _
  | ⟨1, _⟩ => exact (dot_S1024x512_S1024x512_S1024x1024_1_1_0_0_n_n.lhsIdx_val_of_single rfl _ _).trans hk

/-- The right operand's index there is (q, k): both operands are contracted on their second axis. -/
theorem rhs_idx (p q : Fin 1024) (k : Fin 512) :
    dot_S1024x512_S1024x512_S1024x1024_1_1_0_0_n_n.rhsIdx (ix2 p q) ((contrEquiv1 dot_S1024x512_S1024x512_S1024x1024_1_1_0_0_n_n 512 contr_rank contr_size).symm k) = ix2 q k := by
  have hk := contrEquiv1_symm_val dot_S1024x512_S1024x512_S1024x1024_1_1_0_0_n_n 512 contr_rank contr_size k
  funext a
  apply Fin.ext
  match a with
  | ⟨0, _⟩ => exact rhs_axis0 _ _
  | ⟨1, _⟩ => exact (dot_S1024x512_S1024x512_S1024x1024_1_1_0_0_n_n.rhsIdx_val_of_single rfl _ _).trans hk

/-- The accumulation step's block at (p, q): what the accumulator held there plus the inner product of row p of the
    activation block with row q of the weight block. -/
theorem pay2_apply (code : Vec Ideal S1024x512 .i32) (zero scale : Vec Ideal S1024x1 .f32) (colScale : Vec Ideal S1x512 .f32)
    (keep : Vec Ideal S1024x512 .bf16) (xblk : Vec Ideal S1024x512 .f32) (acc : Vec Ideal S1024x1024 .f32) (p q : Fin 1024) :
    k0_pay2 code zero scale colScale keep xblk acc (ix2 p q)
      = acc (ix2 p q) + ∑ k : Fin 512, xblk (ix2 p k) * wBlk code zero scale colScale keep q k := by
  unfold k0_pay2
  simp only [shapeCast_self]
  rw [addf_apply]
  refine congrArg (acc (ix2 p q) + ·) ?_
  refine (Cert.LibContract1.matmul_zero_single dot_S1024x512_S1024x512_S1024x1024_1_1_0_0_n_n 512 contr_rank contr_size _ _ (ix2 p q)
    (fun k => ix2 p k) (fun k => ix2 q k) (lhs_idx p q) (rhs_idx p q)).trans ?_
  refine Finset.sum_congr rfl fun k _ => ?_
  simp only [truncf_apply, extf_apply, mulf_apply, subf_apply, sitofp_apply,
    Cert.LibBroadcast2.bcast_col_apply, broadcastTo_1b_ab_apply, wBlk]

/-- The epilogue's block at (p, q): the accumulator there plus the bias of column q. -/
theorem pay3_apply (acc : Vec Ideal S1024x1024 .f32) (biasRow : Vec Ideal S1x1024 .f32) (p q : Fin 1024) :
    k0_pay3 acc biasRow (ix2 p q) = acc (ix2 p q) + biasRow (ix2 (0 : Fin 1) q) := by
  unfold k0_pay3
  simp only [shapeCast_self]
  rw [addf_apply, broadcastTo_1b_ab_apply]

end Cert.KernelIdeal.Payload

end
-- ==== Proof.Blocks.lean ====
/-
  Where each window's block sits in its array.

  The grid has 8 × 4 × 8 points; point `t` (counted with the last axis fastest) has row-tile `t / 32`, output-column tile
  `(t / 8) % 4` and contraction tile `t % 8`. The activations' block at `t` is rows `1024·(t/32) …`, lanes `512·(t%8) …`; the
  codes' and the mask's block is weight rows `1024·((t/8)%4) …`, lanes `512·(t%8) …`; the scales' and zero points' block
  is those weight rows of the one column; the column scales' block is lanes `512·(t%8) …` of the one row; the bias
  row's block is lanes `1024·((t/8)%4) …`. A block's entry at local coordinate `y` is the array's entry at
  block index × block size + `y` on each axis.

  Two of the arrays are written on the way in: the bias vector [4096] is re-laid as one row [1, 4096], and the boolean
  mask is converted to numbers (0 or 1) entry by entry.
-/
import proofs.«145833_j64330020159913_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ)

/-- The block indices of the seven input windows and of the output window at point `t`, decided over the grid. -/
theorem tile_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = t.val / 8 % 4 ∧ win0_3.index t (1 : Fin 2) = 0
    ∧ win0_4.index t (0 : Fin 2) = t.val / 8 % 4 ∧ win0_4.index t (1 : Fin 2) = t.val % 8
    ∧ win0_5.index t (0 : Fin 2) = 0 ∧ win0_5.index t (1 : Fin 2) = t.val % 8
    ∧ win0_6.index t (0 : Fin 2) = 0 ∧ win0_6.index t (1 : Fin 2) = t.val / 8 % 4
    ∧ win0_7.index t (0 : Fin 2) = t.val / 32 ∧ win0_7.index t (1 : Fin 2) = t.val / 8 % 4 :=
  (by decide +kernel : ∀ t : Fin grid0.N, _)

/-- The activations' block: entry (p, k) is the array's entry (R, N) with R = 1024·(t/32) + p, N = 512·(t%8) + k. -/
theorem x_block (c : Dev nD) (t : Fin cfg0.N) (p : Fin 1024) (k : Fin 512) (R : Fin 8192) (N : Fin 4096)
    (hR : R.val = 1024 * (t.val / 32) + p.val) (hN : N.val = 512 * (t.val % 8) + k.val) :
    (iblk m c 0 t : Vec F S1024x512 .f32) (ix2 p k) = m ((c : Thread nD τ).loc main_arg0) (ix2 R N) := by
  obtain ⟨e0, e1, -⟩ := tile_facts t
  unfold iblk
  rw [View.read_apply]
  show V m c main_arg0 (((cfg0.win 0).blk t).view.emb (ix2 p k)) = _
  refine (congrFun (V_main_arg0 m c) _).trans ?_
  refine congrArg (m ((c : Thread nD τ).loc main_arg0)) ?_
  funext a
  apply Fin.ext
  match a with
  | ⟨0, _⟩ => show win0_0.index t (0 : Fin 2) * 1024 + 1 * p.val = R.val; rw [e0, hR]; omega
  | ⟨1, _⟩ => show win0_0.index t (1 : Fin 2) * 512 + 1 * k.val = N.val; rw [e1, hN]; omega

/-- The codes' block: entry (q, k) is the array's entry (J, N) with J = 1024·((t/8)%4) + q, N = 512·(t%8) + k. -/
theorem codes_block (c : Dev nD) (t : Fin cfg0.N) (q : Fin 1024) (k : Fin 512) (J N : Fin 4096)
    (hJ : J.val = 1024 * (t.val / 8 % 4) + q.val) (hN : N.val = 512 * (t.val % 8) + k.val) :
    (iblk m c 1 t : Vec F S1024x512 .i32) (ix2 q k) = m ((c : Thread nD τ).loc main_arg1) (ix2 J N) := by
  obtain ⟨-, -, e0, e1, -⟩ := tile_facts t
  unfold iblk
  rw [View.read_apply]
  show V m c main_arg1 (((cfg0.win 1).blk t).view.emb (ix2 q k)) = _
  refine (congrFun (V_main_arg1 m c) _).trans ?_
  refine congrArg (m ((c : Thread nD τ).loc main_arg1)) ?_
  funext a
  apply Fin.ext
  match a with
  | ⟨0, _⟩ => show win0_1.index t (0 : Fin 2) * 1024 + 1 * q.val = J.val; rw [e0, hJ]; omega
  | ⟨1, _⟩ => show win0_1.index t (1 : Fin 2) * 512 + 1 * k.val = N.val; rw [e1, hN]; omega

/-- The scales' block: entry (q, 0) is the array's entry (J, 0). -/
theorem scales_block (c : Dev nD) (t : Fin cfg0.N) (q : Fin 1024) (J : Fin 4096)
    (hJ : J.val = 1024 * (t.val / 8 % 4) + q.val) :
    (iblk m c 2 t : Vec F S1024x1 .f32) (ix2 q (0 : Fin 1)) = m ((c : Thread nD τ).loc main_arg2) (ix2 J (0 : Fin 1)) := by
  obtain ⟨-, -, -, -, e0, e1, -⟩ := tile_facts t
  unfold iblk
  rw [View.read_apply]
  show V m c main_arg2 (((cfg0.win 2).blk t).view.emb (ix2 q (0 : Fin 1))) = _
  refine (congrFun (V_main_arg2 m c) _).trans ?_
  refine congrArg (m ((c : Thread nD τ).loc main_arg2)) ?_
  funext a
  apply Fin.ext
  match a with
  | ⟨0, _⟩ => show win0_2.index t (0 : Fin 2) * 1024 + 1 * q.val = J.val; rw [e0, hJ]; omega
  | ⟨1, _⟩ => show win0_2.index t (1 : Fin 2) * 1 + 1 * 0 = 0; rw [e1]

/-- The zero points' block: entry (q, 0) is the array's entry (J, 0). -/
theorem zeros_block (c : Dev nD) (t : Fin cfg0.N) (q : Fin 1024) (J : Fin 4096)
    (hJ : J.val = 1024 * (t.val / 8 % 4) + q.val) :
    (iblk m c 3 t : Vec F S1024x1 .f32) (ix2 q (0 : Fin 1)) = m ((c : Thread nD τ).loc main_arg3) (ix2 J (0 : Fin 1)) := by
  obtain ⟨-, -, -, -, -, -, e0, e1, -⟩ := tile_facts t
  unfold iblk
  rw [View.read_apply]
  show V m c main_arg3 (((cfg0.win 3).blk t).view.emb (ix2 q (0 : Fin 1))) = _
  refine (congrFun (V_main_arg3 m c) _).trans ?_
  refine congrArg (m ((c : Thread nD τ).loc main_arg3)) ?_
  funext a
  apply Fin.ext
  match a with
  | ⟨0, _⟩ => show win0_3.index t (0 : Fin 2) * 1024 + 1 * q.val = J.val; rw [e0, hJ]; omega
  | ⟨1, _⟩ => show win0_3.index t (1 : Fin 2) * 1 + 1 * 0 = 0; rw [e1]

/-- The column scales' block: entry (0, k) is the array's entry (0, N). -/
theorem colScale_block (c : Dev nD) (t : Fin cfg0.N) (k : Fin 512) (N : Fin 4096)
    (hN : N.val = 512 * (t.val % 8) + k.val) :
    (iblk m c 5 t : Vec F S1x512 .f32) (ix2 (0 : Fin 1) k) = m ((c : Thread nD τ).loc main_arg5) (ix2 (0 : Fin 1) N) := by
  obtain ⟨-, -, -, -, -, -, -, -, -, -, e0, e1, -⟩ := tile_facts t
  unfold iblk
  rw [View.read_apply]
  show V m c main_arg5 (((cfg0.win 5).blk t).view.emb (ix2 (0 : Fin 1) k)) = _
  refine (congrFun (V_main_arg5 m c) _).trans ?_
  refine congrArg (m ((c : Thread nD τ).loc main_arg5)) ?_
  funext a
  apply Fin.ext
  match a with
  | ⟨0, _⟩ => show win0_5.index t (0 : Fin 2) * 1 + 1 * 0 = 0; rw [e0]
  | ⟨1, _⟩ => show win0_5.index t (1 : Fin 2) * 512 + 1 * k.val = N.val; rw [e1, hN]; omega

/-- What the region finds in the mask's array: the boolean mask converted to numbers, entry by entry. -/
theorem mask_entry (c : Dev nD) :
    (V m c main_call0_v1 : S4096x4096.Idx → F .bf16) = uitofp .bf16 (m ((c : Thread nD τ).loc main_arg4)) := by
  dsimp only [V, hostOps0]
  after_results
  rfl

/-- What the region finds in the bias row's array: the bias vector re-laid as one row. -/
theorem bias_entry (c : Dev nD) :
    (V m c main_call0_v0 : S1x4096.Idx → F .f32) = shapeCast S1x4096 (m ((c : Thread nD τ).loc main_arg6)) shapeCasts_S4096_S1x4096 := by
  dsimp only [V, hostOps0]
  after_results
  rfl

/-- The mask's block: entry (q, k) is the number (0 or 1) of the boolean at (J, N). -/
theorem mask_block (c : Dev nD) (t : Fin cfg0.N) (q : Fin 1024) (k : Fin 512) (J N : Fin 4096)
    (hJ : J.val = 1024 * (t.val / 8 % 4) + q.val) (hN : N.val = 512 * (t.val % 8) + k.val) :
    (iblk m c 4 t : Vec F S1024x512 .bf16) (ix2 q k) = FloatOps.uitofp .bf16 (m ((c : Thread nD τ).loc main_arg4) (ix2 J N)) := by
  obtain ⟨-, -, -, -, -, -, -, -, e0, e1, -⟩ := tile_facts t
  unfold iblk
  rw [View.read_apply]
  show (V m c main_call0_v1 : S4096x4096.Idx → F .bf16) (((cfg0.win 4).blk t).view.emb (ix2 q k)) = _
  refine (congrFun (mask_entry m c) _).trans ?_
  show FloatOps.uitofp .bf16 (m ((c : Thread nD τ).loc main_arg4) _) = _
  refine congrArg (fun j => FloatOps.uitofp .bf16 (m ((c : Thread nD τ).loc main_arg4) j)) ?_
  funext a
  apply Fin.ext
  match a with
  | ⟨0, _⟩ => show win0_4.index t (0 : Fin 2) * 1024 + 1 * q.val = J.val; rw [e0, hJ]; omega
  | ⟨1, _⟩ => show win0_4.index t (1 : Fin 2) * 512 + 1 * k.val = N.val; rw [e1, hN]; omega

/-- The bias row's block: entry (0, q) is the bias of column J = 1024·((t/8)%4) + q. -/
theorem bias_block (c : Dev nD) (t : Fin cfg0.N) (q : Fin 1024) (J : Fin 4096)
    (hJ : J.val = 1024 * (t.val / 8 % 4) + q.val) :
    (iblk m c 6 t : Vec F S1x1024 .f32) (ix2 (0 : Fin 1) q) = m ((c : Thread nD τ).loc main_arg6) (ix1 J) := by
  obtain ⟨-, -, -, -, -, -, -, -, -, -, -, -, e0, e1, -⟩ := tile_facts t
  unfold iblk
  rw [View.read_apply]
  show (V m c main_call0_v0 : S1x4096.Idx → F .f32) (((cfg0.win 6).blk t).view.emb (ix2 (0 : Fin 1) q)) = _
  refine (congrFun (bias_entry m c) _).trans ?_
  have hidx : ((cfg0.win 6).blk t).view.emb (ix2 (0 : Fin 1) q) = ix2 (0 : Fin 1) J := by
    funext a
    apply Fin.ext
    match a with
    | ⟨0, _⟩ => show win0_6.index t (0 : Fin 2) * 1 + 1 * 0 = 0; rw [e0]
    | ⟨1, _⟩ => show win0_6.index t (1 : Fin 2) * 1024 + 1 * q.val = J.val; rw [e1, hJ]; omega
  rw [hidx]
  exact shapeCast_a_1a_apply _ shapeCasts_S4096_S1x4096 (0 : Fin 1) J

end Cert.KernelIdeal.Blocks

end
-- ==== Proof.LibTileSum.lean ====
/- Sums over a range cut into equal tiles.

   A sum over the first `a·b` naturals is the sum over `a` tiles of `b` consecutive naturals each; cutting each tile
   again gives the three-level form a tiled, lane-preserving accumulation produces: tile `j`, row `k` inside the tile,
   lane `l` inside the row, at position `j·(b·c) + k·c + l` — in whatever order the three sums are taken, since the
   value monoid is commutative. -/
import Mathlib.Algebra.BigOperators.Intervals
import Mathlib.Algebra.BigOperators.Fin

namespace Cert.TileSum

open Finset

/-- A sum over `range (a * b)` is the sum over `a` consecutive tiles of length `b`. -/
theorem sum_range_mul {M : Type*} [AddCommMonoid M] (g : ℕ → M) (a b : ℕ) :
    ∑ n ∈ range (a * b), g n = ∑ i ∈ range a, ∑ j ∈ range b, g (i * b + j) := by
  induction a with
  | zero => simp
  | succ a ih => rw [Nat.succ_mul, sum_range_add, ih, sum_range_succ]

/-- Three levels, the innermost (lane) sum taken OUTERMOST: the sum over lanes `l`, tiles `j` and rows `k` of the
    value at `j·(b·c) + k·c + l` is the sum over `range (a·(b·c))`. -/
theorem sum_lanes_tiles_rows {M : Type*} [AddCommMonoid M] (g : ℕ → M) (a b c : ℕ) :
    ∑ l ∈ range c, ∑ j ∈ range a, ∑ k ∈ range b, g (j * (b * c) + k * c + l)
      = ∑ n ∈ range (a * (b * c)), g n := by
  rw [sum_range_mul g a (b * c), sum_comm]
  refine sum_congr rfl fun j _ => ?_
  rw [sum_range_mul (fun n => g (j * (b * c) + n)) b c, sum_comm]
  refine sum_congr rfl fun k _ => sum_congr rfl fun l _ => ?_
  rw [Nat.add_assoc]

end Cert.TileSum
-- ==== Proof.Spec.lean ====
/-
  The function both programs compute, stated once over the whole argument arrays, and the one law that joins the two
  arrangements of its sum.

  A quantised, sparse linear layer. Row `j` of the weight matrix is stored as integer codes with one zero point and one
  scale per row; column `n` carries a second scale; a boolean mask switches single entries off. The effective weight is
      w(j, n) = (((code(j, n) − zero(j)) · scale(j)) · colScale(n)) · keep(j, n),
  the factors taken in exactly this order (over the extended reals a product may not be regrouped freely next to an
  infinite factor, so the order is part of the definition), and the layer maps activations `x` to
      out(r, j) = (∑ n < 4096, x(r, n) · w(j, n)) + bias(j).

  The arrays are read at NATURAL coordinates (zero outside the array): a block of an array is then the same function at
  shifted coordinates, and no bound proof travels with an index.

  The law: a sum over 4096 consecutive naturals is the sum of 8 tiles of 512, and a running total that starts at `0` and
  adds one tile per step ends at that sum. Only commutativity and associativity of `+` are used (`0 + a = a` included),
  which hold for every extended real, infinite ones too: no finiteness of the inputs is needed.
-/
import Idealize.ShloMosaic.PureOps.Ideal
import Idealize.ShloMosaic.Lib.ValueIdx
import proofs.«145833_j64330020159913_1_alg».proof.Proof.LibTileSum

noncomputable section

namespace Cert.SparseLinear

open Idealize.ShloMosaic Idealize.ShloMosaic.ValueIdx Finset

variable (x : FVec Ideal ⟨2, ![8192, 4096]⟩ .f32) (codes : IVec ⟨2, ![4096, 4096]⟩ 32)
  (scales zeros : FVec Ideal ⟨2, ![4096, 1]⟩ .f32) (keep : IVec ⟨2, ![4096, 4096]⟩ 1)
  (colScale : FVec Ideal ⟨2, ![1, 4096]⟩ .f32) (bias : FVec Ideal ⟨1, ![4096]⟩ .f32)

/-- The activations at natural coordinates. -/
def xAt (r n : ℕ) : EReal := if h : r < 8192 ∧ n < 4096 then x (ix2 ⟨r, h.1⟩ ⟨n, h.2⟩) else 0

/-- The effective weight at natural coordinates: dequantised by the row's zero point and scale, scaled by the column's
    scale, masked — in this order of multiplication. -/
def wAt (j n : ℕ) : EReal :=
  if h : j < 4096 ∧ n < 4096 then
    (((FloatOps.sitofp (F := Ideal) .f32 (codes (ix2 ⟨j, h.1⟩ ⟨n, h.2⟩)) - zeros (ix2 ⟨j, h.1⟩ (0 : Fin 1)))
        * scales (ix2 ⟨j, h.1⟩ (0 : Fin 1))) * colScale (ix2 (0 : Fin 1) ⟨n, h.2⟩))
      * FloatOps.uitofp (F := Ideal) .f32 (keep (ix2 ⟨j, h.1⟩ ⟨n, h.2⟩))
  else 0

/-- The bias at a natural coordinate. -/
def bAt (j : ℕ) : EReal := if h : j < 4096 then bias (ix1 ⟨j, h⟩) else 0

/-- The layer's output: entry (r, j) is the inner product of row r of the activations with row j of the effective
    weights, plus the bias of j. -/
def out : FVec Ideal ⟨2, ![8192, 4096]⟩ .f32 := fun i =>
  (∑ n ∈ range 4096, xAt x (i 0).val n * wAt codes scales zeros keep colScale (i 1).val n) + bAt bias (i 1).val

/-- Inside the array the natural-coordinate reading is the array's entry. -/
theorem xAt_of_lt {r n : ℕ} (hr : r < 8192) (hn : n < 4096) : xAt x r n = x (ix2 ⟨r, hr⟩ ⟨n, hn⟩) :=
  dif_pos ⟨hr, hn⟩

/-- Inside the matrix the effective weight is the product of its five factors, in order. -/
theorem wAt_of_lt {j n : ℕ} (hj : j < 4096) (hn : n < 4096) :
    wAt codes scales zeros keep colScale j n
      = (((FloatOps.sitofp (F := Ideal) .f32 (codes (ix2 ⟨j, hj⟩ ⟨n, hn⟩)) - zeros (ix2 ⟨j, hj⟩ (0 : Fin 1)))
            * scales (ix2 ⟨j, hj⟩ (0 : Fin 1))) * colScale (ix2 (0 : Fin 1) ⟨n, hn⟩))
          * FloatOps.uitofp (F := Ideal) .f32 (keep (ix2 ⟨j, hj⟩ ⟨n, hn⟩)) :=
  dif_pos ⟨hj, hn⟩

/-- Inside the vector the natural-coordinate bias is the vector's entry. -/
theorem bAt_of_lt {j : ℕ} (hj : j < 4096) : bAt bias j = bias (ix1 ⟨j, hj⟩) := dif_pos hj

/-- The output at an entry, spelt out. -/
theorem out_apply (i : (⟨2, ![8192, 4096]⟩ : Shape).Idx) :
    out x codes scales zeros keep colScale bias i
      = (∑ n ∈ range 4096, xAt x (i 0).val n * wAt codes scales zeros keep colScale (i 1).val n) + bAt bias (i 1).val := rfl

/-- A sum over 4096 consecutive naturals is the sum of its 8 tiles of 512. -/
theorem sum_tiles (g : ℕ → EReal) : ∑ s ∈ range 8, ∑ k ∈ range 512, g (512 * s + k) = ∑ n ∈ range 4096, g n := by
  rw [show (4096 : ℕ) = 8 * 512 from rfl, Cert.TileSum.sum_range_mul g 8 512]
  refine sum_congr rfl fun s _ => sum_congr rfl fun k _ => ?_
  rw [Nat.mul_comm]

/-- A running total that starts at zero and receives the tiles one at a time ends at the whole sum. -/
theorem zero_add_tiles (g : ℕ → EReal) : (0 : EReal) + ∑ s ∈ range 8, ∑ k ∈ range 512, g (512 * s + k) = ∑ n ∈ range 4096, g n := by
  rw [zero_add, sum_tiles]

end Cert.SparseLinear

end
-- ==== Proof.Result.lean ====
/-
  What the kernel leaves in its result array: the layer's output.

  The grid walks, for each of the 8 × 4 output tiles, the 8 tiles of the contraction axis in order; the accumulator is
  zeroed at the first of them, receives at each of them the product of the activations' block with the dequantised
  weight block, and at the last of them is written, with the bias row added, to the output tile.

  * One step adds, at entry (p, q) of the tile, the partial inner product over the step's 512 lanes
    (`addend`: the step's blocks read where they sit in the whole arrays).
  * So the accumulator after the last step of a run is `0 +` the sum of the 8 addends of the run
    (the generated fold of the accumulator, unrolled by the library's law for a fold whose every step adds).
  * The 8 addends of a run share the row tile and the column tile and their lanes are the consecutive tiles
    `512·s …`, so their sum is the whole inner product over the 4096 lanes (`Cert.SparseLinear.zero_add_tiles`).
  * Each output tile is written back exactly once, after its last step, and the 32 tiles fill the array.
-/
import proofs.«145833_j64330020159913_1_alg».proof.Proof.Gen.KernelIdeal.Value
import proofs.«145833_j64330020159913_1_alg».proof.Proof.Pieces
import proofs.«145833_j64330020159913_1_alg».proof.Proof.Payload
import proofs.«145833_j64330020159913_1_alg».proof.Proof.Blocks
import proofs.«145833_j64330020159913_1_alg».proof.Proof.Spec
import Idealize.ShloMosaic.Lib.Pipeline.Value

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)
open Cert.SparseLinear Finset

variable (m : (ℓ : Loc nD τ sig) → Buf (Elt Ideal) ℓ) (ρ : Dev nD → PrngReg)

/-- The activations of the launch, at natural coordinates. -/
abbrev xN (c : Dev nD) (r n : ℕ) : EReal := xAt (m ((c : Thread nD τ).loc main_arg0)) r n
/-- The effective weights of the launch, at natural coordinates. -/
abbrev wN (c : Dev nD) (j n : ℕ) : EReal := wAt (m ((c : Thread nD τ).loc main_arg1)) (m ((c : Thread nD τ).loc main_arg2)) (m ((c : Thread nD τ).loc main_arg3)) (m ((c : Thread nD τ).loc main_arg4)) (m ((c : Thread nD τ).loc main_arg5)) j n
/-- The bias of the launch, at a natural coordinate. -/
abbrev bN (c : Dev nD) (j : ℕ) : EReal := bAt (m ((c : Thread nD τ).loc main_arg6)) j

/-- The layer's output of the launch contents: what the result array is to hold. -/
abbrev result (c : Dev nD) : Buf (Elt Ideal) ((c : Thread nD τ).loc main_v0) :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem grid_size : cfg0.N = 256 := N_0

/-! ## One step's blocks, where they sit in the arrays -/

/-- The activations' block of point `t` at (p, k). -/
theorem x_entry (c : Dev nD) (t : Fin cfg0.N) (p : Fin 1024) (k : Fin 512) :
    (iblk m c 0 t : Vec Ideal S1024x512 .f32) (ix2 p k) = xN m c (1024 * (t.val / 32) + p.val) (512 * (t.val % 8) + k.val) := by
  have hN : t.val < 256 := lt_of_lt_of_eq t.isLt grid_size
  have hp := p.isLt
  have hk := k.isLt
  have hr : 1024 * (t.val / 32) + p.val < 8192 := by omega
  have hn : 512 * (t.val % 8) + k.val < 4096 := by omega
  refine (Blocks.x_block m c t p k ⟨_, hr⟩ ⟨_, hn⟩ rfl rfl).trans ?_
  exact (xAt_of_lt (m ((c : Thread nD τ).loc main_arg0)) hr hn).symm

/-- The dequantised weight block of point `t` at (q, k). -/
theorem w_entry (c : Dev nD) (t : Fin cfg0.N) (q : Fin 1024) (k : Fin 512) :
    Payload.wBlk (iblk m c 1 t) (iblk m c 3 t) (iblk m c 2 t) (iblk m c 5 t) (iblk m c 4 t) q k
      = wN m c (1024 * (t.val / 8 % 4) + q.val) (512 * (t.val % 8) + k.val) := by
  have hN : t.val < 256 := lt_of_lt_of_eq t.isLt grid_size
  have hq := q.isLt
  have hk := k.isLt
  have hj : 1024 * (t.val / 8 % 4) + q.val < 4096 := by omega
  have hn : 512 * (t.val % 8) + k.val < 4096 := by omega
  refine Eq.trans ?_ (wAt_of_lt (m ((c : Thread nD τ).loc main_arg1)) (m ((c : Thread nD τ).loc main_arg2)) (m ((c : Thread nD τ).loc main_arg3)) (m ((c : Thread nD τ).loc main_arg4)) (m ((c : Thread nD τ).loc main_arg5)) hj hn).symm
  unfold Payload.wBlk
  rw [Blocks.codes_block m c t q k ⟨_, hj⟩ ⟨_, hn⟩ rfl rfl, Blocks.zeros_block m c t q ⟨_, hj⟩ rfl,
    Blocks.scales_block m c t q ⟨_, hj⟩ rfl, Blocks.colScale_block m c t k ⟨_, hn⟩ rfl,
    Blocks.mask_block m c t q k ⟨_, hj⟩ ⟨_, hn⟩ rfl rfl]
  rfl

/-- The bias row's block of point `t` at (0, q). -/
theorem b_entry (c : Dev nD) (t : Fin cfg0.N) (q : Fin 1024) :
    (iblk m c 6 t : Vec Ideal S1x1024 .f32) (ix2 (0 : Fin 1) q) = bN m c (1024 * (t.val / 8 % 4) + q.val) := by
  have hN : t.val < 256 := lt_of_lt_of_eq t.isLt grid_size
  have hq := q.isLt
  have hj : 1024 * (t.val / 8 % 4) + q.val < 4096 := by omega
  refine (Blocks.bias_block m c t q ⟨_, hj⟩ rfl).trans ?_
  exact (bAt_of_lt (m ((c : Thread nD τ).loc main_arg6)) hj).symm

/-! ## What one step adds -/

/-- What the step at point `n` adds to the accumulator at an entry of the tile: the partial inner product over the
    step's 512 lanes. (A function of every natural `n`; only the grid's points are ever used.) -/
def addend (c : Dev nD) (n : ℕ) (i : S1024x1024.Idx) : EReal :=
  ∑ k ∈ range 512, xN m c (1024 * (n / 32) + (i 0).val) (512 * (n % 8) + k) * wN m c (1024 * (n / 8 % 4) + (i 1).val) (512 * (n % 8) + k)

/-- The accumulation step at point `t` over any accumulator contents: entry by entry, the contents plus the addend. -/
theorem step_apply (c : Dev nD) (t : Fin cfg0.N) (acc : Vec Ideal S1024x1024 .f32) (i : S1024x1024.Idx) :
    k0_pay2 (iblk m c 1 t) (iblk m c 3 t) (iblk m c 2 t) (iblk m c 5 t) (iblk m c 4 t) (iblk m c 0 t) acc i = acc i + addend m c t.val i := by
  obtain ⟨p, q, rfl⟩ : ∃ (p q : Fin 1024), i = ix2 p q := ⟨i 0, i 1, eq_ix2 i⟩
  refine (Payload.pay2_apply (iblk m c 1 t) (iblk m c 3 t) (iblk m c 2 t) (iblk m c 5 t) (iblk m c 4 t) (iblk m c 0 t) acc p q).trans ?_
  refine congrArg (acc (ix2 p q) + ·) ?_
  show _ = ∑ k ∈ range 512, xN m c (1024 * (t.val / 32) + p.val) (512 * (t.val % 8) + k) * wN m c (1024 * (t.val / 8 % 4) + q.val) (512 * (t.val % 8) + k)
  rw [Finset.sum_range]
  refine Finset.sum_congr rfl fun k _ => ?_
  rw [x_entry m c t p k, w_entry m c t q k]

/-! ## The accumulator after a run -/

/-- At the first point of a run the accumulator is left at the step over the zero block. -/
theorem acc_reset (c : Dev nD) (n : ℕ) (hb : n < cfg0.N) (h0 : n % 8 = 0) (junk : Vec Ideal S1024x1024 .f32) :
    Value.scAt0_0 m c n hb junk = k0_pay2 (iblk m c 1 (⟨n, hb⟩ : Fin cfg0.N)) (iblk m c 3 (⟨n, hb⟩ : Fin cfg0.N)) (iblk m c 2 (⟨n, hb⟩ : Fin cfg0.N)) (iblk m c 5 (⟨n, hb⟩ : Fin cfg0.N)) (iblk m c 4 (⟨n, hb⟩ : Fin cfg0.N)) (iblk m c 0 (⟨n, hb⟩ : Fin cfg0.N)) (k0_pay1 (F := Ideal)) := by
  have h1 : ¬n % 8 = 7 := by omega
  unfold Value.scAt0_0
  rw [dif_pos h0, dif_neg h1]
  exact Pieces.acc_first c _ _ _ _ _ _ _ _ _ _ _ _ _ _ _ _ _ _ _ _ _ _ _ _ _ _ _ _

/-- At every other point it is left at the step over what it held. -/
theorem acc_step (c : Dev nD) (n : ℕ) (hb : n < cfg0.N) (h0 : ¬n % 8 = 0) (acc : Vec Ideal S1024x1024 .f32) :
    Value.scAt0_0 m c n hb acc = k0_pay2 (iblk m c 1 (⟨n, hb⟩ : Fin cfg0.N)) (iblk m c 3 (⟨n, hb⟩ : Fin cfg0.N)) (iblk m c 2 (⟨n, hb⟩ : Fin cfg0.N)) (iblk m c 5 (⟨n, hb⟩ : Fin cfg0.N)) (iblk m c 4 (⟨n, hb⟩ : Fin cfg0.N)) (iblk m c 0 (⟨n, hb⟩ : Fin cfg0.N)) acc := by
  unfold Value.scAt0_0
  rw [dif_neg h0]
  by_cases h1 : n % 8 = 7
  · rw [dif_pos h1]
    exact Pieces.acc_last c _ _ _ _ _ _ _ _ _ _ _ _ _ _ _ _ _ _ _ _ _ _ _ _ _ _ _ _ _
  · rw [dif_neg h1]
    exact Pieces.acc_middle c _ _ _ _ _ _ _ _ _ _ _ _ _ _ _ _ _ _ _ _ _ _ _ _ _ _ _ _ _

/-- After the last point of a run (`t % 8 = 7`) the accumulator holds, entry by entry, `0` plus the run's 8 addends. -/
theorem acc_after_run (c : Dev nD) (t : Fin cfg0.N) (h7 : t.val % 8 = 7) (i : S1024x1024.Idx) :
    (outsAt0 m c t.val t.isLt).2 i = 0 + ∑ s ∈ range 8, addend m c (8 * (t.val / 8) + s) i := by
  have hN : t.val < 256 := lt_of_lt_of_eq t.isLt grid_size
  rw [Value.soutsAt0_0_eq m c t]
  have key := Pipeline.accAt_add_apply (N := cfg0.N)
    (fun n h => Value.scAt0_0 m c n h (VS0_0.read (Elt Ideal) VS0_0.junk)) (Value.scAt0_0 m c)
    (fun _ => (0 : EReal)) (addend m c) (8 * (t.val / 8)) 7
    (fun h i => by
      show Value.scAt0_0 m c (8 * (t.val / 8)) h _ i = 0 + addend m c (8 * (t.val / 8)) i
      rw [acc_reset m c _ h (by omega) _]
      refine (step_apply m c ⟨_, h⟩ _ i).trans ?_
      rw [Payload.pay1_apply])
    (fun n h acc i hlo hhi => by
      show Value.scAt0_0 m c n h acc i = acc i + addend m c n i
      rw [acc_step m c n h (by omega) acc]
      exact step_apply m c ⟨n, h⟩ acc i)
    (t.val % 8) (by omega) (lt_of_lt_of_eq (by omega) grid_size.symm) i
  rw [key, h7]

/-! ## The output tile -/

/-- The 8 addends of the run that ends at `t` are the 8 lane tiles of one inner product: row `1024·(t/32) + p` of the
    activations against row `1024·((t/8)%4) + q` of the weights. -/
theorem run_sum (c : Dev nD) (t : Fin cfg0.N) (p q : Fin 1024) :
    (0 : EReal) + ∑ s ∈ range 8, addend m c (8 * (t.val / 8) + s) (ix2 p q)
      = ∑ n ∈ range 4096, xN m c (1024 * (t.val / 32) + p.val) n * wN m c (1024 * (t.val / 8 % 4) + q.val) n := by
  rw [← zero_add_tiles (fun n => xN m c (1024 * (t.val / 32) + p.val) n * wN m c (1024 * (t.val / 8 % 4) + q.val) n)]
  refine congrArg ((0 : EReal) + ·) (Finset.sum_congr rfl fun s hs => ?_)
  have hs' : s < 8 := Finset.mem_range.mp hs
  have e1 : (8 * (t.val / 8) + s) / 32 = t.val / 32 := by omega
  have e2 : (8 * (t.val / 8) + s) % 8 = s := by omega
  have e3 : (8 * (t.val / 8) + s) / 8 % 4 = t.val / 8 % 4 := by omega
  show ∑ k ∈ range 512, xN m c (1024 * ((8 * (t.val / 8) + s) / 32) + p.val) (512 * ((8 * (t.val / 8) + s) % 8) + k)
      * wN m c (1024 * ((8 * (t.val / 8) + s) / 8 % 4) + q.val) (512 * ((8 * (t.val / 8) + s) % 8) + k) = _
  rw [e1, e2, e3]

/-- At the last point of a run the output tile is the accumulator the point leaves, plus the bias row. -/
theorem tile_of_acc (c : Dev nD) (t : Fin cfg0.N) (h7 : t.val % 8 = 7) :
    (outsAt0 m c t.val t.isLt).1 = k0_pay3 (outsAt0 m c t.val t.isLt).2 (iblk m c 6 t) := by
  have h0 : ¬t.val % 8 = 0 := by omega
  rw [outsAt0_C m c t h0 h7]
  dsimp only
  exact (Pieces.out_last c _ _ _ _ _ _ _ _ _ _ _ _ _ _ _ _ _ _ _ _ _ _ _ _ _ _ _ _ _).trans
    (congrArg (fun a => k0_pay3 a (iblk m c 6 t)) (Pieces.acc_last c _ _ _ _ _ _ _ _ _ _ _ _ _ _ _ _ _ _ _ _ _ _ _ _ _ _ _ _ _).symm)

/-- What the last point of a run leaves in the output tile: entry (p, q) is the whole inner product of row
    1024·(t/32) + p of the activations with row 1024·((t/8)%4) + q of the weights, plus that row's bias. -/
theorem tile_entry (c : Dev nD) (t : Fin cfg0.N) (h7 : t.val % 8 = 7) (p q : Fin 1024) :
    (outsAt0 m c t.val t.isLt).1 (ix2 p q)
      = (∑ n ∈ range 4096, xN m c (1024 * (t.val / 32) + p.val) n * wN m c (1024 * (t.val / 8 % 4) + q.val) n)
          + bN m c (1024 * (t.val / 8 % 4) + q.val) := by
  refine (congrFun (tile_of_acc m c t h7) (ix2 p q)).trans ?_
  refine (Payload.pay3_apply (outsAt0 m c t.val t.isLt).2 (iblk m c 6 t) p q).trans ?_
  rw [acc_after_run m c t h7 (ix2 p q), run_sum m c t p q, b_entry m c t q]

/-! ## From the tiles to the array -/

/-- What a point that writes back writes is the layer's output read through the tile. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  obtain ⟨-, -, -, -, -, -, -, -, -, -, -, -, -, -, e0, e1⟩ := Blocks.tile_facts t
  rw [Value.flushed7 m c t]
  funext j
  obtain ⟨p, q, rfl⟩ : ∃ (p q : Fin 1024), j = ix2 p q := ⟨j 0, j 1, eq_ix2 j⟩
  have c0 : ((((cfg0.win 7).blk t).view.emb (ix2 p q)) (0 : Fin 2)).val = 1024 * (t.val / 32) + p.val := by
    show win0_7.index t (0 : Fin 2) * 1024 + 1 * p.val = _
    rw [e0]; omega
  have c1 : ((((cfg0.win 7).blk t).view.emb (ix2 p q)) (1 : Fin 2)).val = 1024 * (t.val / 8 % 4) + q.val := by
    show win0_7.index t (1 : Fin 2) * 1024 + 1 * q.val = _
    rw [e1]; omega
  show (outsAt0 m c t.val t.isLt).1 (ix2 p q) = result m c (((cfg0.win 7).blk t).view.emb (ix2 p q))
  rw [tile_entry m c t h7 p q]
  refine Eq.trans ?_ (out_apply _ _ _ _ _ _ _ _).symm
  rw [c0, c1]

/-- An entry of the array is in point `t`'s tile iff each coordinate is in the tile's range on its axis. -/
theorem mem_tile (t : Fin cfg0.N) (i : S8192x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v0).slice (win0_7.rect t)).set ↔ _
  rw [View.set_slice_whole, Rect.mem_set_unit]
  exact Iff.rfl

/-- Every entry of the array lies in the tile of a point that writes back: the last point of the run of its tile. -/
theorem cover (i : S8192x4096.Idx) : ∃ t : Fin cfg0.N, (cfg0.win 7).flush t = true ∧ i ∈ ((cfg0.win 7).blk t).view.set := by
  have hi0 : (i 0).val < 8192 := idx2_lt0 i
  have hi1 : (i 1).val < 4096 := idx2_lt1 i
  have hb : 32 * ((i 0).val / 1024) + 8 * ((i 1).val / 1024) + 7 < cfg0.N := by rw [grid_size]; omega
  refine ⟨⟨32 * ((i 0).val / 1024) + 8 * ((i 1).val / 1024) + 7, hb⟩, (flush0_7 _).mpr (by show (32 * ((i 0).val / 1024) + 8 * ((i 1).val / 1024) + 7) % 8 = 7; omega), ?_⟩
  obtain ⟨-, -, -, -, -, -, -, -, -, -, -, -, -, -, e0, e1⟩ := Blocks.tile_facts ⟨32 * ((i 0).val / 1024) + 8 * ((i 1).val / 1024) + 7, hb⟩
  rw [mem_tile]
  intro a
  match a with
  | ⟨0, _⟩ =>
    show win0_7.index _ (0 : Fin 2) * 1024 ≤ (i 0).val ∧ (i 0).val < win0_7.index _ (0 : Fin 2) * 1024 + 1024
    rw [e0]
    show (32 * ((i 0).val / 1024) + 8 * ((i 1).val / 1024) + 7) / 32 * 1024 ≤ (i 0).val ∧ (i 0).val < (32 * ((i 0).val / 1024) + 8 * ((i 1).val / 1024) + 7) / 32 * 1024 + 1024
    omega
  | ⟨1, _⟩ =>
    show win0_7.index _ (1 : Fin 2) * 1024 ≤ (i 1).val ∧ (i 1).val < win0_7.index _ (1 : Fin 2) * 1024 + 1024
    rw [e1]
    show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
    omega

/-- So the result array ends holding the layer's output. -/
theorem final (c : Dev nD) : (dats m 0 c).arrAt 7 cfg0.N = result m c :=
  (dats m 0 c).arrAt_eq_of_cover 7 (result m c) (flushed_eq m c) cover

/-- The kernel's run, read: the result array at the layer's output of the launch contents, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.RefValue.lean ====
/-
  The reference computes the layer's output.

  Read one entry at a time: the reference forms the whole dequantised, column-scaled, masked weight matrix
  (codes minus the row's zero point, times the row's scale, times the column's scale, times the mask as numbers),
  transposes it, multiplies the activations by it (entry (r, j) of that product is the sum over n of x(r, n) times the
  transposed matrix at (n, j), that is the weight at (j, n)), and adds the bias of column j spread over the rows. This is
  the specification's `out`, factor for factor in the same order; the only rewriting is of the index functions (a
  broadcast reads its operand at the kept coordinate, the transpose swaps the two coordinates) and of the sum's index
  set (the 4096 lane numbers as naturals below 4096).
-/
import proofs.«145833_j64330020159913_1_alg».proof.Proof.Gen.ReferenceIdeal.Read
import proofs.«145833_j64330020159913_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SparseLinear

/-- The reference's result, as the Read module composes it, is the specification's output of the same arrays. -/
theorem result_eq (x0 : (⟨S8192x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096x4096, .i1⟩ : BufTy).Contents (Elt Ideal))
    (x5 : (⟨S1x4096, .f32⟩ : BufTy).Contents (Elt Ideal)) (x6 : (⟨S4096, .f32⟩ : BufTy).Contents (Elt Ideal)) :
    val_main_v13 (F := Ideal) x0 x1 x2 x3 x4 x5 x6 = out x0 x1 x2 x3 x4 x5 x6 := by
  funext i
  have h0 : (i 0).val < 8192 := idx2_lt0 i
  have h1 : (i 1).val < 4096 := idx2_lt1 i
  rw [val_main_v13_apply, val_main_v10_apply, val_main_v12_apply, val_main_v11_apply]
  rw [out_apply, Finset.sum_range, bAt_of_lt x6 h1]
  refine congrArg₂ (· + ·) (Finset.sum_congr rfl fun k _ => ?_) ?_
  · rw [val_main_v9_apply, val_main_v8_apply, val_main_v6_apply, val_main_v4_apply, val_main_v2_apply,
      val_main_v0_apply, val_main_v1_apply, val_main_v3_apply, val_main_v5_apply, val_main_v7_apply]
    rw [xAt_of_lt x0 h0 k.isLt, wAt_of_lt x1 x2 x3 x4 x5 h1 k.isLt]
    have el : lidx_main_v10 i k = ix2 ⟨(i 0).val, h0⟩ ⟨k.val, k.isLt⟩ :=
      funext fun a => Fin.ext (by match a with | ⟨0, _⟩ => rfl | ⟨1, _⟩ => rfl)
    have ew : idx_main_v9 (ridx_main_v10 i k) = ix2 ⟨(i 1).val, h1⟩ ⟨k.val, k.isLt⟩ :=
      funext fun a => Fin.ext (by match a with | ⟨0, _⟩ => rfl | ⟨1, _⟩ => rfl)
    have ez : idx_main_v1 (ix2 ⟨(i 1).val, h1⟩ ⟨k.val, k.isLt⟩) = ix2 ⟨(i 1).val, h1⟩ (0 : Fin 1) :=
      funext fun a => Fin.ext (by match a with | ⟨0, _⟩ => rfl | ⟨1, _⟩ => rfl)
    have es : idx_main_v3 (ix2 ⟨(i 1).val, h1⟩ ⟨k.val, k.isLt⟩) = ix2 ⟨(i 1).val, h1⟩ (0 : Fin 1) :=
      funext fun a => Fin.ext (by match a with | ⟨0, _⟩ => rfl | ⟨1, _⟩ => rfl)
    have ec : idx_main_v5 (ix2 ⟨(i 1).val, h1⟩ ⟨k.val, k.isLt⟩) = ix2 (0 : Fin 1) ⟨k.val, k.isLt⟩ :=
      funext fun a => Fin.ext (by match a with | ⟨0, _⟩ => rfl | ⟨1, _⟩ => rfl)
    rw [el, ew, ez, es, ec]
    rfl
  · have eb : idx_main_v11 (idx_main_v12 i) = ix1 ⟨(i 1).val, h1⟩ :=
      funext fun a => Fin.ext (by match a with | ⟨0, _⟩ => rfl)
    rw [eb]

end Cert.ReferenceIdeal.RefValue

end
-- ==== Proof.lean ====
/-
  A quantised sparse linear layer computed by a tiled kernel equals its plain reference, over the extended reals.

  Both programs compute, for activations `x` [8192, 4096], integer codes [4096, 4096] with a zero point and a scale per
  row, a scale per column, a boolean mask and a bias,
      out(r, j) = (∑ n < 4096, x(r, n) · w(j, n)) + bias(j),   w(j, n) = (((code(j, n) − zero(j)) · scale(j)) · colScale(n)) · keep(j, n).
  The reference forms the whole weight matrix and takes one matrix product. The kernel walks 8 × 4 output tiles of
  1024 × 1024 and, for each, 8 tiles of 512 lanes of the contraction axis: it zeroes an accumulator, adds per lane tile
  the product of the activations' block with the dequantised weight block (rounded to bf16 on the way in, which changes
  nothing at exact values), and after the last lane tile writes the accumulator plus the bias row to the output tile.
  The two agree because a sum over 4096 lanes is the sum of its 8 tiles of 512, accumulated from zero in any grouping:
  only commutativity and associativity of addition are used, so the precondition (finite inputs) is never opened.
  The mask reaches the kernel converted to numbers ahead of the call and the reference converts it in place; both read
  0 or 1.

  The three frames are the generated ones (the reference's is its generated run with the result dropped); the ideal
  pass rewrote nothing, so there is nothing to preserve; the value claim sets the kernel's run (`Result.run`: the result
  array ends at the specification's `out` of the launch contents) beside the reference's run read entry by entry
  (`RefValue.result_eq`: the same `out`).
-/
import proofs.«145833_j64330020159913_1_alg».proof.Defs
import proofs.«145833_j64330020159913_1_alg».proof.Proof.Gen.Kernel
import proofs.«145833_j64330020159913_1_alg».proof.Proof.Gen.Kernel.Frame
import proofs.«145833_j64330020159913_1_alg».proof.Proof.Gen.KernelIdeal
import proofs.«145833_j64330020159913_1_alg».proof.Proof.Gen.KernelIdeal.Frame
import proofs.«145833_j64330020159913_1_alg».proof.Proof.Gen.KernelIdeal.Value
import proofs.«145833_j64330020159913_1_alg».proof.Proof.Gen.ReferenceIdeal
import proofs.«145833_j64330020159913_1_alg».proof.Proof.Gen.ReferenceIdeal.Run
import proofs.«145833_j64330020159913_1_alg».proof.Proof.Gen.ReferenceIdeal.Read
import proofs.«145833_j64330020159913_1_alg».proof.Proof.Gen.Pre_finite_inputs
import proofs.«145833_j64330020159913_1_alg».proof.Proof.Result
import proofs.«145833_j64330020159913_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading at exact values. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact-value reading of the kernel is the kernel's own text: nothing was rewritten. -/
theorem preserves : Cert.preserves_Kernel_KernelIdeal := trivial

/-- From memories that agree on the arguments, both programs end with the layer's output of those arguments in their
    result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
